-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S50000x128 .f32) (main_arg1 : IVec S2x600000 32) (main_arg2 : FVec F S128x128 .f32) (main_arg3 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S2000x128 : Shape := ⟨2, ![2000, 128]⟩
abbrev S1x128 : Shape := ⟨2, ![1, 128]⟩

abbrev nBuf : Space → Nat
  | .hbm => 22
  | .vmem => 8
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S1x600000, .i32⟩
  | .hbm, ⟨5, _⟩ => ⟨S600000, .i32⟩
  | .hbm, ⟨6, _⟩ => ⟨S1x600000, .i32⟩
  | .hbm, ⟨7, _⟩ => ⟨S600000, .i32⟩
  | .hbm, ⟨8, _⟩ => ⟨S_, .i32⟩
  | .hbm, ⟨9, _⟩ => ⟨S600000, .i32⟩
  | .hbm, ⟨10, _⟩ => ⟨S600000, .i1⟩
  | .hbm, ⟨11, _⟩ => ⟨S_, .i32⟩
  | .hbm, ⟨12, _⟩ => ⟨S600000, .i32⟩
  | .hbm, ⟨13, _⟩ => ⟨S600000, .i32⟩
  | .hbm, ⟨14, _⟩ => ⟨S600000, .i32⟩
  | .hbm, ⟨15, _⟩ => ⟨S600000x1, .i32⟩
  | .hbm, ⟨16, _⟩ => ⟨S600000x128, .f32⟩
  | .hbm, ⟨17, _⟩ => ⟨S_, .f32⟩
  | .hbm, ⟨18, _⟩ => ⟨S50000x128, .f32⟩
  | .hbm, ⟨19, _⟩ => ⟨S600000x1, .i32⟩
  | .hbm, ⟨20, _⟩ => ⟨S50000x128, .f32⟩
  | .hbm, ⟨21, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S128, .f32⟩
  | .local _ .vmem, ⟨6, _⟩ => ⟨S2000x128, .f32⟩
  | .local _ .vmem, ⟨7, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S2000x128_S128x128_S2000x128_1_1_0_0_n_n_wf : DotDims.WF S2000x128 S128x128 S2000x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x128.size a ≤ S50000x128.size a
  hwx0_4 : ∀ i : grid0.Coords, EltTy.bits .f32 = 32 ∨ (Rect.block (s := S50000x128) S2000x128.size (cc0_transform_4 i) (hinb0_4 i)).WholeWords (EltTy.packing .f32)

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S2000x128_S128x128_S2000x128_1_1_0_0_n_n : DotDims S2000x128 S128x128 S2000x128 where
  lhsContracting := [1]
  rhsContracting := [1]
  lhsNonContracting := [0]
  rhsNonContracting := [0]
  lhsBatch := []
  rhsBatch := []
  wf := dot_S2000x128_S128x128_S2000x128_1_1_0_0_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S2000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S1x128 : Shape := ⟨2, ![1, 128]⟩

abbrev nBuf : Space → Nat
  | .hbm => 29
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S1x600000, .i32⟩
  | .hbm, ⟨5, _⟩ => ⟨S600000, .i32⟩
  | .hbm, ⟨6, _⟩ => ⟨S1x600000, .i32⟩
  | .hbm, ⟨7, _⟩ => ⟨S600000, .i32⟩
  | .hbm, ⟨8, _⟩ => ⟨S_, .i32⟩
  | .hbm, ⟨9, _⟩ => ⟨S600000, .i32⟩
  | .hbm, ⟨10, _⟩ => ⟨S600000, .i1⟩
  | .hbm, ⟨11, _⟩ => ⟨S_, .i32⟩
  | .hbm, ⟨12, _⟩ => ⟨S600000, .i32⟩
  | .hbm, ⟨13, _⟩ => ⟨S600000, .i32⟩
  | .hbm, ⟨14, _⟩ => ⟨S600000, .i32⟩
  | .hbm, ⟨15, _⟩ => ⟨S600000x1, .i32⟩
  | .hbm, ⟨16, _⟩ => ⟨S600000x128, .f32⟩
  | .hbm, ⟨17, _⟩ => ⟨S_, .f32⟩
  | .hbm, ⟨18, _⟩ => ⟨S50000x128, .f32⟩
  | .hbm, ⟨19, _⟩ => ⟨S600000x1, .i32⟩
  | .hbm, ⟨20, _⟩ => ⟨S50000x128, .f32⟩
  | .hbm, ⟨21, _⟩ => ⟨S_, .f32⟩
  | .hbm, ⟨22, _⟩ => ⟨S50000x128, .f32⟩
  | .hbm, ⟨23, _⟩ => ⟨S50000x128, .f32⟩
  | .hbm, ⟨24, _⟩ => ⟨S50000x128, .f32⟩
  | .hbm, ⟨25, _⟩ => ⟨S50000x128, .f32⟩
  | .hbm, ⟨26, _⟩ => ⟨S1x128, .f32⟩
  | .hbm, ⟨27, _⟩ => ⟨S50000x128, .f32⟩
  | .hbm, ⟨28, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x128_S50000x128_1_1_0_0_n_n_wf : DotDims.WF S50000x128 S128x128 S50000x128 [1] [1] [0] [0] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x128_S50000x128_1_1_0_0_n_n : DotDims S50000x128 S128x128 S50000x128 where
  lhsContracting := [1]
  rhsContracting := [1]
  lhsNonContracting := [0]
  rhsNonContracting := [0]
  lhsBatch := []
  rhsBatch := []
  wf := dot_S50000x128_S128x128_S50000x128_1_1_0_0_n_n_wf

class Facts : Prop extends Facts₀ where

variable [Facts]
-- ==== Proof.LibMatmulNT.lean ====
/-
  A matrix product against a TRANSPOSED right factor, read at an entry.

  `tpu.matmul` of an [M,K] left factor and an [N,K] right factor, contracting the second axis of both (the product
  `lhs · rhsᵀ`), into the zero accumulator: at the exact instance its entry (p, o) is  Σ_k lhs[p,k] · rhs[o,k].
  Stated for any dimension record over these shapes whose contraction has one axis of extent K and whose operand
  indices have the four evident coordinates; a record of a printed program supplies those by computation.
-/
import Idealize.ShloMosaic.PureOps.Ideal.Laws
import Idealize.ShloMosaic.Lib.ValueIdx

noncomputable section

open scoped BigOperators

namespace Cert.LibMatmulNT

open Idealize.ShloMosaic Idealize.ShloMosaic.ValueIdx

/-- Entry (p, o) of `lhs · rhsᵀ` accumulated from zero is the sum over the shared axis of the products of row `p` of
    the left factor and row `o` of the right factor. -/
theorem matmul_nt_zero_apply {M K N : Nat} {φ₁ φ₂ : FTy}
    (D : DotDims ⟨2, ![M, K]⟩ ⟨2, ![N, K]⟩ ⟨2, ![M, N]⟩) (prec : Option ContractPrecision)
    (hr : D.contr.rank = 1) (hs : D.contr.size ⟨0, by omega⟩ = K)
    (hl0 : ∀ j q, (D.lhsIdx j q 0).val = (j 0).val)
    (hl1 : ∀ j q, (D.lhsIdx j q 1).val = (q ⟨0, by omega⟩).val)
    (hr0 : ∀ j q, (D.rhsIdx j q 0).val = (j 1).val)
    (hr1 : ∀ j q, (D.rhsIdx j q 1).val = (q ⟨0, by omega⟩).val)
    (lhs : FVec Ideal ⟨2, ![M, K]⟩ φ₁) (rhs : FVec Ideal ⟨2, ![N, K]⟩ φ₂) (p : Fin M) (o : Fin N) :
    FloatOps.matmul D prec lhs rhs (constant (F := Ideal) ⟨2, ![M, N]⟩ .f32 0x00000000#32) (ix2 p o)
      = ∑ k : Fin K, lhs (ix2 p k) * rhs (ix2 o k) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p o) ((contrEquiv1 D K hr hs).symm k) = ix2 p k := funext fun a => Fin.ext (by
    match a with
    | ⟨0, _⟩ => exact hl0 _ _
    | ⟨1, _⟩ => exact (hl1 _ _).trans hk)
  have er : D.rhsIdx (ix2 p o) ((contrEquiv1 D K hr hs).symm k) = ix2 o k := funext fun a => Fin.ext (by
    match a with
    | ⟨0, _⟩ => exact hr0 _ _
    | ⟨1, _⟩ => exact (hr1 _ _).trans hk)
  rw [el, er]

end Cert.LibMatmulNT

end
-- ==== Proof.Layer.lean ====
/-
  One graph-isomorphism layer followed by a linear map, entry by entry, on the extended reals.

  For node features x (N rows of 128), neighbour sums a (same shape), weights W (128 outputs by 128 inputs) and a bias b,
  the layer's entry (p, o) is

      Σ_k (x[p,k] · u + a[p,k]) · W[o,k]  +  b[o],

  where u is what the f32 word of 1.0 denotes. The word is kept as a word: both programs multiply by the same one, so its
  value is never needed. The only law used to set the two programs side by side is that a product of two extended reals
  does not depend on the order of its factors, which holds at the infinities too; so nothing here asks the inputs to be
  finite.

  The layer is stated for any number of rows N, so that one definition serves a block of rows and the whole array, and
  `entry_congr` says that an entry only reads row p of x and of a, row o of W and b at o — so a block of the layer is the
  layer of the blocks.
-/
import Idealize.ShloMosaic.PureOps.Ideal
import Idealize.ShloMosaic.Lib.ValueIdx

noncomputable section

open scoped BigOperators

namespace Cert.GinLinear

open Idealize.ShloMosaic Idealize.ShloMosaic.ValueIdx

/-- What the f32 word of 1.0 denotes on the extended reals. Never evaluated. -/
abbrev unit : EReal := Ideal.ofBits .f32 0x3F800000#32

/-- Entry (p, o) of the layer: row p of `x · u + a` against row o of `W`, plus the bias at o. -/
def entry {N : ℕ} (x a : (⟨2, ![N, 128]⟩ : Shape).Idx → EReal) (W : (⟨2, ![128, 128]⟩ : Shape).Idx → EReal)
    (b : (⟨1, ![128]⟩ : Shape).Idx → EReal) (p : Fin N) (o : Fin 128) : EReal :=
  (∑ k : Fin 128, (x (ix2 p k) * unit + a (ix2 p k)) * W (ix2 o k)) + b (ix1 o)

/-- The layer as one array. -/
def layer {N : ℕ} (x a : (⟨2, ![N, 128]⟩ : Shape).Idx → EReal) (W : (⟨2, ![128, 128]⟩ : Shape).Idx → EReal)
    (b : (⟨1, ![128]⟩ : Shape).Idx → EReal) : (⟨2, ![N, 128]⟩ : Shape).Idx → EReal :=
  fun i => entry x a W b (i 0) (i 1)

theorem layer_apply {N : ℕ} (x a : (⟨2, ![N, 128]⟩ : Shape).Idx → EReal) (W : (⟨2, ![128, 128]⟩ : Shape).Idx → EReal)
    (b : (⟨1, ![128]⟩ : Shape).Idx → EReal) (p : Fin N) (o : Fin 128) :
    layer x a W b (ix2 p o) = entry x a W b p o := rfl

/-- An entry reads one row of the features and of the neighbour sums, one row of the weights and one bias: if row `p`
    of `(x, a)` is row `p'` of `(x', a')`, row `o` of `W` is row `o'` of `W'` and `b` at `o` is `b'` at `o'`, the two
    layers agree at `(p, o)` and `(p', o')`. This is what lets a block of rows be computed from the block alone. -/
theorem entry_congr {N N' : ℕ} (x a : (⟨2, ![N, 128]⟩ : Shape).Idx → EReal) (x' a' : (⟨2, ![N', 128]⟩ : Shape).Idx → EReal)
    (W W' : (⟨2, ![128, 128]⟩ : Shape).Idx → EReal) (b b' : (⟨1, ![128]⟩ : Shape).Idx → EReal)
    (p : Fin N) (p' : Fin N') (o o' : Fin 128)
    (hx : ∀ k : Fin 128, x (ix2 p k) = x' (ix2 p' k)) (ha : ∀ k : Fin 128, a (ix2 p k) = a' (ix2 p' k))
    (hW : ∀ k : Fin 128, W (ix2 o k) = W' (ix2 o' k)) (hb : b (ix1 o) = b' (ix1 o')) :
    entry x a W b p o = entry x' a' W' b' p' o' := by
  unfold entry
  rw [hb]
  refine congrArg (· + b' (ix1 o')) (Finset.sum_congr rfl fun k _ => ?_)
  rw [hx k, ha k, hW k]

end Cert.GinLinear

end
-- ==== Proof.BlockEntry.lean ====
/-
  What the kernel body stores, read at one entry.

  The body loads a block of 2000 rows of the features and of the neighbour sums, the whole weight matrix and the bias,
  forms h = x · u + a, rounds h and W to bf16 (no change on the extended reals), multiplies h by the transpose of W on the
  matrix unit from a zero accumulator, and adds the bias as a row spread over the 2000 rows. Read at (p, q) that is the
  layer's entry (p, q) of the four loaded blocks: the product with the transposed factor is a sum over the shared axis,
  the cast of the neighbour block to its own shape is the identity, and the spread bias row reads the bias at q.
-/
import proofs.«101376_j19619410608393_1_alg».proof.Proof.Gen.KernelIdeal.Skeleton
import proofs.«101376_j19619410608393_1_alg».proof.Proof.LibMatmulNT
import proofs.«101376_j19619410608393_1_alg».proof.Proof.Layer
import Idealize.ShloMosaic.Lib.ValueIdx
import Idealize.ShloMosaic.Lib.ValueLayout
import Idealize.ShloMosaic.Lib.Pipeline.Value

noncomputable section

open scoped BigOperators

namespace Cert.KernelIdeal.BlockEntry

open Cert.KernelIdeal Cert.KernelIdeal.Gen Idealize.ShloMosaic Idealize.ShloMosaic.ValueIdx

/-! ## The product's dimension record: which coordinates each factor is read at -/

theorem lhs_row (j : S2000x128.Idx) (q : dot_S2000x128_S128x128_S2000x128_1_1_0_0_n_n.contr.Idx) :
    (dot_S2000x128_S128x128_S2000x128_1_1_0_0_n_n.lhsIdx j q 0).val = (j 0).val := by
  unfold DotDims.lhsIdx
  rw [dif_neg (show ¬(0 : Fin S2000x128.rank) ∈ dot_S2000x128_S128x128_S2000x128_1_1_0_0_n_n.lhsBatch by decide),
    dif_pos (show (0 : Fin S2000x128.rank) ∈ dot_S2000x128_S128x128_S2000x128_1_1_0_0_n_n.lhsNonContracting by decide)]
  rfl

theorem lhs_shared (j : S2000x128.Idx) (q : dot_S2000x128_S128x128_S2000x128_1_1_0_0_n_n.contr.Idx) :
    (dot_S2000x128_S128x128_S2000x128_1_1_0_0_n_n.lhsIdx j q 1).val = (q ⟨0, by decide⟩).val :=
  dot_S2000x128_S128x128_S2000x128_1_1_0_0_n_n.lhsIdx_val_of_single rfl j q

theorem rhs_row (j : S2000x128.Idx) (q : dot_S2000x128_S128x128_S2000x128_1_1_0_0_n_n.contr.Idx) :
    (dot_S2000x128_S128x128_S2000x128_1_1_0_0_n_n.rhsIdx j q 0).val = (j 1).val := by
  unfold DotDims.rhsIdx
  rw [dif_neg (show ¬(0 : Fin S128x128.rank) ∈ dot_S2000x128_S128x128_S2000x128_1_1_0_0_n_n.rhsBatch by decide),
    dif_pos (show (0 : Fin S128x128.rank) ∈ dot_S2000x128_S128x128_S2000x128_1_1_0_0_n_n.rhsNonContracting by decide)]
  rfl

theorem rhs_shared (j : S2000x128.Idx) (q : dot_S2000x128_S128x128_S2000x128_1_1_0_0_n_n.contr.Idx) :
    (dot_S2000x128_S128x128_S2000x128_1_1_0_0_n_n.rhsIdx j q 1).val = (q ⟨0, by decide⟩).val :=
  dot_S2000x128_S128x128_S2000x128_1_1_0_0_n_n.rhsIdx_val_of_single rfl j q

/-! ## The stored value at (p, q) -/

/-- The body's stored value at row `p`, output feature `q` of the block is the layer's entry `(p, q)` of the loaded
    blocks: Σ_k (x[p,k] · u + a[p,k]) · W[q,k] + b[q]. -/
theorem pay_apply (x0 x1 : Vec Ideal S2000x128 .f32) (w : Vec Ideal S128x128 .f32) (b : Vec Ideal S128 .f32)
    (p : Fin 2000) (q : Fin 128) :
    k0_pay1 (F := Ideal) x0 x1 w b (ix2 p q) = Cert.GinLinear.entry x0 x1 w b p q := by
  unfold k0_pay1 Cert.GinLinear.entry
  show FloatOps.matmul dot_S2000x128_S128x128_S2000x128_1_1_0_0_n_n none _ _ (constant (F := Ideal) S2000x128 .f32 0x00000000#32) (ix2 p q)
      + broadcastTo S2000x128 (shapeCast S1x128 b shapeCasts_S128_S1x128) broadcasts_S1x128_S2000x128 (ix2 p q) = _
  refine congrArg₂ (· + ·) ?_ ?_
  · refine (Cert.LibMatmulNT.matmul_nt_zero_apply dot_S2000x128_S128x128_S2000x128_1_1_0_0_n_n none rfl rfl
      lhs_row lhs_shared rhs_row rhs_shared _ _ p q).trans ?_
    refine Finset.sum_congr rfl fun k _ => ?_
    show (x0 (ix2 p k) * Ideal.ofBits .f32 0x3F800000#32 + shapeCast S2000x128 x1 shapeCasts_S2000x128_S2000x128 (ix2 p k)) * w (ix2 q k) = _
    rw [shapeCast_self]
  · refine (broadcastTo_1b_ab_apply _ _ p q).trans ?_
    exact shapeCast_a_1a_apply b _ 0 q

end Cert.KernelIdeal.BlockEntry

end
-- ==== Proof.Whole.lean ====
/-
  From blocks to the array: the kernel's result array is the layer of the arrays the region finds.

  The grid has 25 points. Point t reads rows 2000·t … 2000·t + 1999 of the features and of the neighbour sums, the whole
  weight matrix and the whole bias, and writes rows 2000·t … 2000·t + 1999 of the result. Because an entry (p, o) of the
  layer only reads row p of the features and neighbour sums, row o of the weights and the bias at o, what point t
  writes back is rows 2000·t … of the layer of the WHOLE arrays; and every row r lies in the block of point r / 2000. So
  the array after the run is that layer.
-/
import proofs.«101376_j19619410608393_1_alg».proof.Proof.Gen.KernelIdeal.Value
import proofs.«101376_j19619410608393_1_alg».proof.Proof.BlockEntry
import proofs.«101376_j19619410608393_1_alg».proof.Proof.Layer
import Idealize.ShloMosaic.Lib.Pipeline.Value
import Idealize.ShloMosaic.Lib.ValueIdx

noncomputable section

open scoped BigOperators

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zero2 : (![0, 0] : Fin 2 → Nat) = fun _ => 0 := funext fun a => by fin_cases a <;> rfl
theorem zero1 : (![0] : Fin 1 → Nat) = fun _ => 0 := funext fun a => by fin_cases a <;> rfl

/-- Which block each window holds at point `t`, decided over the 25 points: the features, the neighbour sums and the
    result move down the rows with `t`; the weights and the bias stay. -/
theorem block_of_point : ∀ t : Fin cfg0.N,
    win0_4.index t (0 : Fin 2) = t.val ∧ win0_4.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0 :=
  (by decide +kernel : ∀ t : Fin grid0.N, _)

/-- The layer of the arrays as the region finds them. -/
abbrev result (c : Dev nD) : S50000x128.Idx → EReal :=
  Cert.GinLinear.layer (N := 50000) (V m c main_arg0) (V m c main_v13) (V m c main_arg2) (V m c main_arg3)

/-! ## Each window's block, read at an entry, is its array read at the matching entry -/

/-- Row `p` of the feature block at point `t` is row `2000·t + p` of the features. -/
theorem features_row (c : Dev nD) (t : Fin cfg0.N) (p : Fin 2000) (k : Fin 128) (P : Fin 50000) (hP : P.val = t.val * 2000 + p.val) :
    (iblk m c 0 t : Vec Ideal S2000x128 .f32) (ix2 p k) = (V m c main_arg0 : S50000x128.Idx → EReal) (ix2 P k) := by
  obtain ⟨-, -, e0, e1, -⟩ := block_of_point t
  show V m c main_arg0 (((cfg0.win 0).blk t).view.emb (ix2 p k)) = V m c main_arg0 (ix2 P k)
  refine congrArg (V m c main_arg0) (funext fun a => Fin.ext ?_)
  match a with
  | ⟨0, _⟩ => show win0_0.index t (0 : Fin 2) * 2000 + 1 * p.val = P.val; omega
  | ⟨1, _⟩ => show win0_0.index t (1 : Fin 2) * 128 + 1 * k.val = k.val; omega

/-- Row `p` of the neighbour-sum block at point `t` is row `2000·t + p` of the neighbour sums. -/
theorem sums_row (c : Dev nD) (t : Fin cfg0.N) (p : Fin 2000) (k : Fin 128) (P : Fin 50000) (hP : P.val = t.val * 2000 + p.val) :
    (iblk m c 1 t : Vec Ideal S2000x128 .f32) (ix2 p k) = (V m c main_v13 : S50000x128.Idx → EReal) (ix2 P k) := by
  obtain ⟨-, -, -, -, e0, e1, -⟩ := block_of_point t
  show V m c main_v13 (((cfg0.win 1).blk t).view.emb (ix2 p k)) = V m c main_v13 (ix2 P k)
  refine congrArg (V m c main_v13) (funext fun a => Fin.ext ?_)
  match a with
  | ⟨0, _⟩ => show win0_1.index t (0 : Fin 2) * 2000 + 1 * p.val = P.val; omega
  | ⟨1, _⟩ => show win0_1.index t (1 : Fin 2) * 128 + 1 * k.val = k.val; omega

/-- The weight block at any point is the weight matrix. -/
theorem weights_row (c : Dev nD) (t : Fin cfg0.N) (o k : Fin 128) :
    (iblk m c 2 t : Vec Ideal S128x128 .f32) (ix2 o k) = (V m c main_arg2 : S128x128.Idx → EReal) (ix2 o k) := by
  obtain ⟨-, -, -, -, -, -, e0, e1, -⟩ := block_of_point t
  show V m c main_arg2 (((cfg0.win 2).blk t).view.emb (ix2 o k)) = V m c main_arg2 (ix2 o k)
  refine congrArg (V m c main_arg2) (funext fun a => Fin.ext ?_)
  match a with
  | ⟨0, _⟩ => show win0_2.index t (0 : Fin 2) * 128 + 1 * o.val = o.val; omega
  | ⟨1, _⟩ => show win0_2.index t (1 : Fin 2) * 128 + 1 * k.val = k.val; omega

/-- The bias block at any point is the bias. -/
theorem bias_at (c : Dev nD) (t : Fin cfg0.N) (o : Fin 128) :
    (iblk m c 3 t : Vec Ideal S128 .f32) (ix1 o) = (V m c main_arg3 : S128.Idx → EReal) (ix1 o) := by
  obtain ⟨-, -, -, -, -, -, -, -, e0⟩ := block_of_point t
  show V m c main_arg3 (((cfg0.win 3).blk t).view.emb (ix1 o)) = V m c main_arg3 (ix1 o)
  refine congrArg (V m c main_arg3) (funext fun a => Fin.ext ?_)
  match a with
  | ⟨0, _⟩ => show win0_3.index t (0 : Fin 1) * 128 + 1 * o.val = o.val; omega

/-! ## What a point writes back -/

/-- WHAT POINT `t` WRITES BACK is block `t` of the layer of the whole arrays. -/
theorem flushed_eq (c : Dev nD) (t : Fin cfg0.N) :
    (dats m 0 c).flushed 4 t = ((cfg0.win 4).blk t).view.read (Elt Ideal) (result m c) := by
  rw [Cert.KernelIdeal.Value.flushed4]
  unfold out0_4
  rw [View.canon_unit_zero zero2]
  simp only [View.ld_unit_zero (S := S2000x128) zero2, View.ld_unit_zero (S := S128x128) zero2, View.ld_unit_zero (S := S128) zero1]
  obtain ⟨e0, e1, -⟩ := block_of_point t
  funext j
  obtain ⟨p, q, rfl⟩ : ∃ (p : Fin 2000) (q : Fin 128), j = ix2 p q := ⟨j 0, j 1, eq_ix2 j⟩
  have hN : t.val < 25 := t.isLt
  have hp : p.val < 2000 := p.isLt
  let P : Fin 50000 := ⟨t.val * 2000 + p.val, by omega⟩
  have hemb : ((cfg0.win 4).blk t).view.emb (ix2 p q) = (ix2 P q : S50000x128.Idx) := funext fun a => Fin.ext (by
    match a with
    | ⟨0, _⟩ => show win0_4.index t (0 : Fin 2) * 2000 + 1 * p.val = t.val * 2000 + p.val; omega
    | ⟨1, _⟩ => show win0_4.index t (1 : Fin 2) * 128 + 1 * q.val = q.val; omega)
  show k0_pay1 (F := Ideal) (iblk m c 0 t) (iblk m c 1 t) (iblk m c 2 t) (iblk m c 3 t) (ix2 p q)
      = result m c (((cfg0.win 4).blk t).view.emb (ix2 p q))
  rw [hemb]
  refine (Cert.KernelIdeal.BlockEntry.pay_apply (iblk m c 0 t) (iblk m c 1 t) (iblk m c 2 t) (iblk m c 3 t) p q).trans ?_
  exact Cert.GinLinear.entry_congr (iblk m c 0 t) (iblk m c 1 t) (V m c main_arg0) (V m c main_v13)
    (iblk m c 2 t) (V m c main_arg2) (iblk m c 3 t) (V m c main_arg3) p P q q
    (fun k => features_row m c t p k P rfl) (fun k => sums_row m c t p k P rfl)
    (fun k => weights_row m c t q k) (bias_at m c t q)

/-! ## The blocks cover the array -/

/-- An index of the result array is in point `t`'s block iff each coordinate is in the block's range on its axis. -/
theorem mem_block (t : Fin cfg0.N) (i : S50000x128.Idx) :
    i ∈ ((cfg0.win 4).blk t).view.set ↔ ∀ a : Fin 2, win0_4.index t a * S2000x128.size a ≤ (i a).val ∧ (i a).val < win0_4.index t a * S2000x128.size a + S2000x128.size a := by
  show i ∈ ((View.whole main_v14).slice (win0_4.rect t)).set ↔ _
  rw [View.set_slice_whole, Rect.mem_set_unit]
  exact Iff.rfl

/-- Row `r` lies in the block of point `r / 2000`. -/
theorem covered (i : S50000x128.Idx) : ∃ t : Fin cfg0.N, (cfg0.win 4).flush t = true ∧ i ∈ ((cfg0.win 4).blk t).view.set := by
  have hi0 : (i 0).val < 50000 := (i 0).isLt
  have hi1 : (i 1).val < 128 := (i 1).isLt
  have hN : grid0.N = 25 := N_0
  have ht : (i 0).val / 2000 < cfg0.N := by show (i 0).val / 2000 < grid0.N; rw [hN]; omega
  obtain ⟨e0, e1, -⟩ := block_of_point ⟨(i 0).val / 2000, ht⟩
  refine ⟨⟨(i 0).val / 2000, ht⟩, flush0_4 _, ?_⟩
  rw [mem_block]
  intro a
  match a with
  | ⟨0, _⟩ =>
    show win0_4.index ⟨(i 0).val / 2000, ht⟩ (0 : Fin 2) * 2000 ≤ (i 0).val ∧ (i 0).val < win0_4.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win0_4.index ⟨(i 0).val / 2000, ht⟩ (1 : Fin 2) * 128 ≤ (i 1).val ∧ (i 1).val < win0_4.index ⟨(i 0).val / 2000, ht⟩ (1 : Fin 2) * 128 + 128
    rw [e1]; omega

/-! ## The array after the run, and the run -/

/-- THE RESULT ARRAY after the run is the layer of the arrays the region finds. -/
theorem final (c : Dev nD) : (dats m 0 c).arrAt 4 cfg0.N = result m c :=
  (dats m 0 c).arrAt_eq_of_cover 4 (result m c) (fun t _ => flushed_eq m c t) covered

/-- The kernel's run, read: the result array ends at the layer of the region-entry arrays, the arguments unchanged. -/
theorem run : θ_run defs (onTc (τ := τ) (main (F := Ideal))) ⟨m, fun _ => 0, ρ⟩ fun r => ∀ c : Dev nD,
      r.2.mem ((c : Thread nD τ).loc main_v14) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩)
    (Cert.KernelIdeal.Value.run_blocks m ρ)

end Cert.KernelIdeal.Whole

end
-- ==== Proof.Aggregate.lean ====
/-
  The neighbour sums, as one array.

  Both programs begin with the same host computation: the edge list's first row gives each edge's source node (a negative
  word wrapped by adding the node count), the second row its target; the features of the sources are gathered, one row per
  edge, and added into a zero array at the targets. Nothing in the comparison of the two programs depends on what that
  sum IS — only on both programs forming the same one from the same features and edges. So it is named here as one
  function `neighbourSum` of the features and the edge list and never opened:

  * `found`: it is what the kernel's region finds in the array its second window reads;
  * `neighbourSum_eq_stage`: it is, term for term, the reference's scatter stage.
-/
import proofs.«101376_j19619410608393_1_alg».proof.Proof.Gen.KernelIdeal.Frame
import proofs.«101376_j19619410608393_1_alg».proof.Proof.Gen.ReferenceIdeal.Read
import Idealize.ShloMosaic.Lib.StableHlo.Run

noncomputable section

namespace Cert.KernelIdeal.Aggregate

open Cert.KernelIdeal Cert.KernelIdeal.Gen Idealize.ShloMosaic Idealize.ShloMosaic.TcCoe Idealize.SL.Sem Idealize.ShloMosaic.StableHlo

variable {F : FTy → Type} [FloatOps F]

/-- The sum, over the edges into each node, of the source nodes' feature rows: a gather of the rows named by the edge
    list's first row (negative words wrapped), scattered additively into zeros at the rows named by its second row. -/
def neighbourSum (x : (⟨S50000x128, .f32⟩ : BufTy).Contents (Elt F)) (e : (⟨S2x600000, .i32⟩ : BufTy).Contents (Elt F)) :
    (⟨S50000x128, .f32⟩ : BufTy).Contents (Elt F) :=
  Host.scatterAdd scatter_S50000x128_S600000x1_S600000x128_1_0_0_1 (broadcastInDim S50000x128 ![] bcast_S_S50000x128 (constant S_ .f32 0x00000000#32)) (broadcastInDim S600000x1 ![0] bcast_S600000_S600000x1_0 (shapeCast _ (extractStridedSlice S1x600000 ![1, 0] e slices_S2x600000_S1x600000_1_0) shapeCasts_S1x600000_S600000)) (Host.gather gather_S50000x128_S600000x1_S600000x128_1_0_n_n_0_1_1128 x (broadcastInDim S600000x1 ![0] bcast_S600000_S600000x1_0 (select (cmpi .slt (shapeCast _ (extractStridedSlice S1x600000 ![0, 0] e slices_S2x600000_S1x600000_0_0) shapeCasts_S1x600000_S600000) (broadcastInDim S600000 ![] bcast_S_S600000 (constantI S_ 32 0#32))) (addi (shapeCast _ (extractStridedSlice S1x600000 ![0, 0] e slices_S2x600000_S1x600000_0_0) shapeCasts_S1x600000_S600000) (broadcastInDim S600000 ![] bcast_S_S600000 (constantI S_ 32 50000#32))) (shapeCast _ (extractStridedSlice S1x600000 ![0, 0] e slices_S2x600000_S1x600000_0_0) shapeCasts_S1x600000_S600000))))

/-- The reference computes the same sum by the same operations: the two terms are one. -/
theorem neighbourSum_eq_stage (x : (⟨S50000x128, .f32⟩ : BufTy).Contents (Elt F)) (e : (⟨S2x600000, .i32⟩ : BufTy).Contents (Elt F)) :
    neighbourSum (F := F) x e = Cert.ReferenceIdeal.Read.val_main_v13 (F := F) x e := rfl

variable (m : (ℓ : Loc nD τ sig) → Buf (Elt F) ℓ)

set_option maxHeartbeats 1000000 in
/-- When the region is entered, the array its second window reads holds the neighbour sums of the launch-time features and
    edge list. -/
theorem found (c : Dev nD) :
    V m c main_v13 = neighbourSum (F := F) (m ((c : Thread nD τ).loc main_arg0)) (m ((c : Thread nD τ).loc main_arg1)) := by
  unfold neighbourSum
  dsimp only [Gen.V, Gen.hostOps0]
  after_results
  rfl

end Cert.KernelIdeal.Aggregate

end
-- ==== Proof.RefLayer.lean ====
/-
  The reference's result, read at an entry, is the layer.

  After computing the neighbour sums a (kept here as ONE array, the reference's scatter stage, never opened), the
  reference forms u · x + a, contracts it with W over the second axis of both, and adds the bias spread over the rows.
  Read at (p, o): the contraction is the sum over k of (u · x[p,k] + a[p,k]) · W[o,k], the two broadcasts of the bias read
  b[o], and u · x[p,k] = x[p,k] · u because a product of extended reals does not depend on the order of its factors.
-/
import proofs.«101376_j19619410608393_1_alg».proof.Proof.Gen.ReferenceIdeal.Read
import proofs.«101376_j19619410608393_1_alg».proof.Proof.Layer
import Idealize.ShloMosaic.Lib.ValueIdx

noncomputable section

open scoped BigOperators

namespace Cert.ReferenceIdeal.RefLayer

open Cert.ReferenceIdeal Cert.ReferenceIdeal.Read Idealize.ShloMosaic Idealize.ShloMosaic.ValueIdx

/-- The contraction reads the left factor at row `p`, shared coordinate `k`. -/
theorem left_at (p : Fin 50000) (o k : Fin 128) : lidx_main_v17 (ix2 p o) k = ix2 p k :=
  funext fun a => Fin.ext (by match a with | ⟨0, _⟩ => rfl | ⟨1, _⟩ => rfl)

/-- The contraction reads the weights at row `o`, shared coordinate `k`. -/
theorem right_at (p : Fin 50000) (o k : Fin 128) : ridx_main_v17 (ix2 p o) k = ix2 o k :=
  funext fun a => Fin.ext (by match a with | ⟨0, _⟩ => rfl | ⟨1, _⟩ => rfl)

/-- The bias, made a row and spread over the rows, reads the bias at `o`. -/
theorem bias_at (p : Fin 50000) (o : Fin 128) : idx_main_v18 (idx_main_v19 (ix2 p o)) = ix1 o :=
  funext fun a => Fin.ext (by match a with | ⟨0, _⟩ => rfl)

/-- The reference's result array is the layer of the features, the neighbour-sum stage, the weights and the bias. -/
theorem result_is_layer (x : (⟨S50000x128, .f32⟩ : BufTy).Contents (Elt Ideal)) (e : (⟨S2x600000, .i32⟩ : BufTy).Contents (Elt Ideal))
    (W : (⟨S128x128, .f32⟩ : BufTy).Contents (Elt Ideal)) (b : (⟨S128, .f32⟩ : BufTy).Contents (Elt Ideal)) :
    val_main_v20 (F := Ideal) x e W b = Cert.GinLinear.layer x (val_main_v13 (F := Ideal) x e) W b := by
  funext i
  obtain ⟨p, o, rfl⟩ : ∃ (p : Fin 50000) (o : Fin 128), i = ix2 p o := ⟨i 0, i 1, eq_ix2 i⟩
  rw [Cert.GinLinear.layer_apply]
  unfold Cert.GinLinear.entry
  rw [val_main_v20_apply, val_main_v17_apply, val_main_v19_apply, val_main_v18_apply, bias_at]
  refine congrArg₂ (· + ·) (Finset.sum_congr rfl fun k _ => ?_) rfl
  rw [left_at, right_at, val_main_v16_apply, val_main_v15_apply, val_main_v14_apply, val_main_cst_1_apply]
  show (Ideal.ofBits .f32 0x3F800000#32 * x (ix2 p k) + val_main_v13 (F := Ideal) x e (ix2 p k)) * W (ix2 o k) = _
  rw [mul_comm (Ideal.ofBits .f32 0x3F800000#32) (x (ix2 p k))]

end Cert.ReferenceIdeal.RefLayer

end
-- ==== Proof.lean ====
/-
  A graph-isomorphism layer (neighbour sums added to the node features) followed by a linear map, computed two ways.

  Both programs first form, on the host and by the same operations, the neighbour sums a: for each node the sum of the
  feature rows of the nodes with an edge into it. The kernel then computes, 2000 rows at a time on a grid of 25 points,

      out[p, o] = Σ_k (x[p,k] · u + a[p,k]) · W[o,k] + b[o]

  (h = x · u + a rounded to bf16, which changes nothing on the extended reals, times the transpose of W on the matrix
  unit from a zero accumulator, plus the bias spread over the rows; u is what the word of 1.0 denotes), and the reference
  computes the same entry for all 50000 rows at once with the factors of u · x in the other order. The proof:

  * `Layer`       the entry above as one function `layer` of the four arrays, for any number of rows;
  * `BlockEntry`  what the kernel body stores, read at (p, q), is the layer's entry of the four loaded blocks;
  * `Whole`       point t's block is rows 2000·t … of the layer of the whole arrays, and the 25 blocks cover the result,
                  so the result array is the layer of the arrays the region finds;
  * `Aggregate`   the array the region finds for a is the neighbour sums of the arguments, and that term is the
                  reference's own scatter stage (the sum is never opened);
  * `RefLayer`    the reference's result, read at (p, o), is the layer, by commuting u · x.

  No step needs the inputs to be finite: a product of extended reals commutes at the infinities too. The idealization
  rewrote nothing, so the kernel is its own idealization's source and that conjunct is trivial. The three frames are the
  generated ones (for the reference: its generated run with the result dropped).
-/
import proofs.«101376_j19619410608393_1_alg».proof.Defs
import proofs.«101376_j19619410608393_1_alg».proof.Proof.Gen.Kernel
import proofs.«101376_j19619410608393_1_alg».proof.Proof.Gen.Kernel.Frame
import proofs.«101376_j19619410608393_1_alg».proof.Proof.Gen.KernelIdeal
import proofs.«101376_j19619410608393_1_alg».proof.Proof.Gen.KernelIdeal.Frame
import proofs.«101376_j19619410608393_1_alg».proof.Proof.Gen.ReferenceIdeal
import proofs.«101376_j19619410608393_1_alg».proof.Proof.Gen.Pre_finite_inputs
import proofs.«101376_j19619410608393_1_alg».proof.Proof.Gen.KernelIdeal.Value
import proofs.«101376_j19619410608393_1_alg».proof.Proof.Gen.ReferenceIdeal.Run
import proofs.«101376_j19619410608393_1_alg».proof.Proof.Gen.ReferenceIdeal.Read
import proofs.«101376_j19619410608393_1_alg».proof.Proof.Whole
import proofs.«101376_j19619410608393_1_alg».proof.Proof.Aggregate
import proofs.«101376_j19619410608393_1_alg».proof.Proof.RefLayer

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- The layer of the arrays the region finds is the layer of the arguments and their neighbour sums, the latter spelt as
    the reference's stage. -/
theorem result_of_arguments (m : (ℓ : Loc Cert.KernelIdeal.nD Cert.KernelIdeal.τ Cert.KernelIdeal.sig) → Buf (Elt Ideal) ℓ)
    (c : Dev Cert.KernelIdeal.nD) :
    Cert.KernelIdeal.Whole.result m c
      = Cert.GinLinear.layer (N := 50000)
          (m ((c.tc : Thread Cert.KernelIdeal.nD Cert.KernelIdeal.τ).loc Cert.KernelIdeal.main_arg0))
          (Cert.ReferenceIdeal.Read.val_main_v13 (F := Ideal)
            (m ((c.tc : Thread Cert.KernelIdeal.nD Cert.KernelIdeal.τ).loc Cert.KernelIdeal.main_arg0))
            (m ((c.tc : Thread Cert.KernelIdeal.nD Cert.KernelIdeal.τ).loc Cert.KernelIdeal.main_arg1)))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3)) := by
  show Cert.GinLinear.layer (N := 50000) (Cert.KernelIdeal.Gen.V m c Cert.KernelIdeal.main_arg0) (Cert.KernelIdeal.Gen.V m c Cert.KernelIdeal.main_v13)
      (Cert.KernelIdeal.Gen.V m c Cert.KernelIdeal.main_arg2) (Cert.KernelIdeal.Gen.V m c Cert.KernelIdeal.main_arg3) = _
  rw [Cert.KernelIdeal.Gen.V_main_arg0, Cert.KernelIdeal.Gen.V_main_arg2, Cert.KernelIdeal.Gen.V_main_arg3,
    Cert.KernelIdeal.Aggregate.found, Cert.KernelIdeal.Aggregate.neighbourSum_eq_stage]

/-- From memories agreeing on the arguments both programs end with the result array at the layer of the arguments and
    their neighbour sums. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  show _ = Cert.KernelIdeal.Whole.result m c
  rw [Cert.ReferenceIdeal.Read.val_main_v20_eq, Cert.ReferenceIdeal.RefLayer.result_is_layer, result_of_arguments m c,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
